-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048x2048 .f32) (main_arg2 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x2048 : Shape := ⟨2, ![8192, 2048]⟩
abbrev S2048x2048 : Shape := ⟨2, ![2048, 2048]⟩
abbrev S2048 : Shape := ⟨1, ![2048]⟩
abbrev S2048x1 : Shape := ⟨2, ![2048, 1]⟩
abbrev S512x2048 : Shape := ⟨2, ![512, 2048]⟩
abbrev S512x1 : Shape := ⟨2, ![512, 1]⟩
abbrev S512 : Shape := ⟨1, ![512]⟩
abbrev S1x2048 : Shape := ⟨2, ![1, 2048]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x1, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1, .f32⟩
  | .local _ .vmem, ⟨3, _⟩ => ⟨S512x1, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S2048_S1x2048 : S2048.ShapeCasts S1x2048
  shapeCasts_S2048x1_S2048 : S2048x1.ShapeCasts S2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S2048x1.size a
  hwx0_1 : ∀ i : grid0.Coords, EltTy.bits .f32 = 32 ∨ (Rect.block (s := S2048x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S8192x2048.size a
  hwx1_3 : ∀ i : grid1.Coords, EltTy.bits .f32 = 32 ∨ (Rect.block (s := S8192x2048) S512x2048.size (cc1_transform_3 i) (hinb1_3 i)).WholeWords (EltTy.packing .f32)

variable [Facts₀]

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S2048, .f32⟩
  | .hbm, ⟨7, _⟩ => ⟨S8192x1, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S1x2048, .f32⟩
  | .hbm, ⟨13, _⟩ => ⟨S8192x2048, .f32⟩
  | .hbm, ⟨14, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  reducesTo_S2048x2048_S2048_d1 : S2048x2048.ReducesTo [1] S2048
  bcast_S8192_S8192x1_0 : S8192.BroadcastsInDim S8192x1 (![0] : Fin 1 → Fin S8192x1.rank)
  bcast_S2048_S1x2048_1 : S2048.BroadcastsInDim S1x2048 (![1] : Fin 1 → Fin S1x2048.rank)
  bcast_S8192x1_S8192x2048_0_1 : S8192x1.BroadcastsInDim S8192x2048 (![0, 1] : Fin 2 → Fin S8192x2048.rank)
  bcast_S1x2048_S8192x2048_0_1 : S1x2048.BroadcastsInDim S8192x2048 (![0, 1] : Fin 2 → Fin S8192x2048.rank)

variable [Facts₀]

class Facts : Prop extends Facts₀ where

variable [Facts]
-- ==== Proof.Spec.lean ====
/-
  Row sums, added across and scaled by a bias: the one function both programs compute.

  For a matrix `x` (8192 × 2048), a matrix `w` (2048 × 2048) and a vector `b` (2048), entry `(p, q)` of the result is

      (Σ_k x[p, k]  +  Σ_k w[q, k]) · b[q]

  on the extended reals: the sum of row `p` of `x`, plus the sum of row `q` of `w`, times the bias at `q`. Addition of
  extended reals is commutative and associative, so each row sum is one finite sum whatever order or grouping a program
  takes it in; nothing here needs the entries to be finite.
-/
import Idealize.ShloMosaic.Lib.ValueIdx
import Idealize.ShloMosaic.PureOps.Ideal

noncomputable section

namespace Cert.RowSums

open Idealize.ShloMosaic Idealize.ShloMosaic.ValueIdx

/-- Entry `(p, q)`: row `p` of `x` summed, plus row `q` of `w` summed, times `b` at `q`. -/
def entry (x : (⟨2, ![8192, 2048]⟩ : Shape).Idx → EReal) (w : (⟨2, ![2048, 2048]⟩ : Shape).Idx → EReal)
    (b : (⟨1, ![2048]⟩ : Shape).Idx → EReal) (p : Fin 8192) (q : Fin 2048) : EReal :=
  ((∑ k : Fin 2048, x (ix2 p k)) + ∑ k : Fin 2048, w (ix2 q k)) * b (ix1 q)

/-- The whole result array, index by index. -/
def total (x : (⟨2, ![8192, 2048]⟩ : Shape).Idx → EReal) (w : (⟨2, ![2048, 2048]⟩ : Shape).Idx → EReal)
    (b : (⟨1, ![2048]⟩ : Shape).Idx → EReal) : (⟨2, ![8192, 2048]⟩ : Shape).Idx → EReal :=
  fun i => entry x w b (i 0) (i 1)

theorem total_apply (x : (⟨2, ![8192, 2048]⟩ : Shape).Idx → EReal) (w : (⟨2, ![2048, 2048]⟩ : Shape).Idx → EReal)
    (b : (⟨1, ![2048]⟩ : Shape).Idx → EReal) (p : Fin 8192) (q : Fin 2048) :
    total x w b (ix2 p q) = entry x w b p q := rfl

end Cert.RowSums

end
-- ==== Proof.RefValue.lean ====
/-
  The reference computes the row-sum function.

  Its program sums `x` and `w` along their rows from zero, spreads the first sums down a column and across the columns,
  the second along a row and down the rows, adds the two matrices and multiplies by the bias spread down the rows. Read
  at entry `(p, q)` every spreading step only renames an index, each sum from zero is the row's sum (`0 + s = s`), and
  what is left is (Σ_k x[p, k] + Σ_k w[q, k]) · b[q].
-/
import proofs.«120098_j30133490549220_2_alg».proof.Proof.Gen.ReferenceIdeal.Read
import proofs.«120098_j30133490549220_2_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read

/-- The reference's result, index by index, is the row-sum function of its three arguments. -/
theorem result_eq (x0 : (⟨S8192x2048, .f32⟩ : BufTy).Contents (Elt Ideal)) (x1 : (⟨S2048x2048, .f32⟩ : BufTy).Contents (Elt Ideal))
    (x2 : (⟨S2048, .f32⟩ : BufTy).Contents (Elt Ideal)) :
    val_main_v9 (F := Ideal) x0 x1 x2 = Cert.RowSums.total x0 x1 x2 := by
  funext i
  obtain ⟨p, q, rfl⟩ : ∃ (p : Fin 8192) (q : Fin 2048), i = ix2 p q := ⟨i 0, i 1, eq_ix2 i⟩
  have ex : ∀ k : Fin 2048, idx_main_v0 (idx_main_v2 (idx_main_v4 (ix2 p q))) k = ix2 p k := fun k =>
    funext fun a => Fin.ext (by match a with | ⟨0, _⟩ => rfl | ⟨1, _⟩ => rfl)
  have ew : ∀ k : Fin 2048, idx_main_v1 (idx_main_v3 (idx_main_v5 (ix2 p q))) k = ix2 q k := fun k =>
    funext fun a => Fin.ext (by match a with | ⟨0, _⟩ => rfl | ⟨1, _⟩ => rfl)
  have eb : idx_main_v7 (idx_main_v8 (ix2 p q)) = ix1 q :=
    funext fun a => Fin.ext (by match a with | ⟨0, _⟩ => rfl)
  rw [val_main_v9_apply, val_main_v6_apply, val_main_v4_apply, val_main_v2_apply, val_main_v0_apply,
    val_main_v5_apply, val_main_v3_apply, val_main_v1_apply, val_main_v8_apply, val_main_v7_apply]
  simp only [ex, ew, eb, val_main_cst_apply, val_main_cst_0_apply, Ideal.ofBits_def, Ideal.ofBits_zero_f32, zero_add,
    Ideal.addf_def, Ideal.mulf_def]
  rfl

end Cert.ReferenceIdeal.RefValue

end
-- ==== Proof.LibColumns.lean ====
/-
  Column vectors among matrices, read at explicit coordinates.

  A sum or a maximum taken along the rows of a matrix with the reduced axis kept comes back as an `a × 1` column:
  the length-`a` result reshaped to a column, and later spread across the columns of a matrix again. Read at an
  index: the reshaped column's entry `(i, u)` is the vector's entry `i`; the column spread to `a × b` has, at
  `(p, c)`, the column's entry `(p, 0)`. Also here: the sum over the one index of a single-axis contraction, with
  the two operands' indices along the contracted axis named by the caller.
-/
import Idealize.ShloMosaic.Lib.ValueIdx
import Idealize.ShloMosaic.Lib.Pipeline.Value
import Idealize.ShloMosaic.PureOps.Ideal.Laws

namespace Cert.LibColumns

open Idealize.ShloMosaic Idealize.ShloMosaic.ValueIdx

variable {α : Type}

/-- A length-`a` vector reshaped to an `a × 1` column: entry `(i, u)` is the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column spread across `b` columns: entry `(p, c)` is the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over a one-axis contraction's index, re-indexed by the contracted coordinate `k`: the caller names the
    two operands' indices at each `k`. -/
theorem sum_contr1 {sl sr so : Shape} (D : DotDims sl sr so) (K : ℕ) (hr : D.contr.rank = 1)
    (hs : D.contr.size ⟨0, by omega⟩ = K) (l : sl.Idx → EReal) (r : sr.Idx → EReal) (j : so.Idx)
    (L : Fin K → sl.Idx) (R : Fin K → sr.Idx)
    (hl : ∀ k : Fin K, D.lhsIdx j ((contrEquiv1 D K hr hs).symm k) = L k)
    (hr' : ∀ k : Fin K, D.rhsIdx j ((contrEquiv1 D K hr hs).symm k) = R k) :
    ∑ q : D.contr.Idx, l (D.lhsIdx j q) * r (D.rhsIdx j q) = ∑ k : Fin K, l (L k) * r (R k) := by
  rw [← Equiv.sum_comp (contrEquiv1 D K hr hs).symm]
  exact Finset.sum_congr rfl fun k _ => by rw [hl k, hr' k]

end Cert.LibColumns
-- ==== Proof.Payloads.lean ====
/-
  What each kernel body stores, read at an entry.

  The first body loads a 512 × 2048 block of `w` and stores the 512 × 1 column of its row sums: a lane sum from zero,
  reshaped to a column. The second loads a 512 × 2048 block of `x`, the 1 × 2048 row of `w`'s row sums and the
  1 × 2048 bias row, and stores, at `(p, q)`, (the sum of row `p` of the block + the row-sum entry `q`) · the bias
  entry `q`: the block's row sums as a column spread across the columns, the two rows spread down the rows.
-/
import proofs.«120098_j30133490549220_2_alg».proof.Proof.Gen.KernelIdeal.Skeleton
import proofs.«120098_j30133490549220_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowSum

open Idealize.ShloMosaic Idealize.ShloMosaic.ValueIdx Cert.KernelIdeal Cert.KernelIdeal.Gen

/-- The lane sum of a 512 × 2048 block from zero, at row `p`: the sum of the block's row `p`. -/
theorem laneSum_apply (v : Vec Ideal S512x2048 .f32) (h : S512x2048.Reduces [1] S512) (hφ : FKind.Formats FTy.f32)
    (hacc : (0x00000000#32 : BitVec 32) = 0x00000000#32) (p : Fin 512) :
    multiReduction (F := Ideal) .add [1] S512 v 0x00000000#32 h hφ hacc (ix1 p) = ∑ k : Fin 2048, v (ix2 p k) := by
  refine (Ideal.multiReduction_add_single v 0x00000000#32 h hφ hacc (ix1 p)).trans ?_
  refine Finset.sum_congr rfl fun k _ => congrArg v ?_
  funext a; apply Fin.ext
  match a with
  | ⟨0, _⟩ => rfl
  | ⟨1, _⟩ => rfl

/-- The first body's store at `(p, 0)`: the sum of row `p` of the block it loaded. -/
theorem k0_pay1_apply (v : Vec Ideal S512x2048 .f32) (p : Fin 512) (u : Fin 1) :
    k0_pay1 (F := Ideal) v (ix2 p u) = ∑ k : Fin 2048, v (ix2 p k) := by
  unfold k0_pay1
  refine (Cert.LibColumns.shapeCast_a_a1_apply _ _ p u).trans ?_
  exact laneSum_apply v _ _ _ p

/-- The second body's store at `(p, q)`: (the sum of row `p` of the `x` block + the row-sum row at `q`) · the bias row at `q`. -/
theorem k1_pay1_apply (v0 : Vec Ideal S512x2048 .f32) (v3 v8 : Vec Ideal S1x2048 .f32) (p : Fin 512) (q : Fin 2048) :
    k1_pay1 (F := Ideal) v0 v3 v8 (ix2 p q)
      = ((∑ k : Fin 2048, v0 (ix2 p k)) + v3 (ix2 (0 : Fin 1) q)) * v8 (ix2 (0 : Fin 1) q) := by
  unfold k1_pay1
  refine congrArg₂ (· * ·) (congrArg₂ (· + ·) ?_ ?_) ?_
  · refine (Cert.LibColumns.broadcastTo_a1_ab_apply _ _ p q).trans ?_
    refine (Cert.LibColumns.shapeCast_a_a1_apply _ _ p (0 : Fin 1)).trans ?_
    exact laneSum_apply v0 _ _ _ p
  · refine (broadcastTo_1b_ab_apply _ _ p q).trans ?_
    exact congrFun (shapeCast_self v3 _) _
  · refine (broadcastTo_1b_ab_apply _ _ p q).trans ?_
    exact congrFun (shapeCast_self v8 _) _

end Cert.KernelIdeal.RowSum

end
-- ==== Proof.Region0.lean ====
/-
  The first pallas_call leaves the row sums of `w` as a column.

  Its grid has four points; point `t` loads rows 512·t … 512·t + 511 of `w` (all 2048 columns) and writes back rows
  512·t … 512·t + 511 of the 2048 × 1 result: the sums of those rows. So what each point writes back is its block of
  ONE whole-array function of `w` — entry `(r, 0)` is Σ_k w[r, k] — and the four blocks tile the result (row `r` is
  in the block of point `r / 512`): after the call the result array is that function.
-/
import proofs.«120098_j30133490549220_2_alg».proof.Proof.Gen.KernelIdeal.Frame
import proofs.«120098_j30133490549220_2_alg».proof.Proof.Payloads
import Idealize.ShloMosaic.Lib.Pipeline.Value

set_option maxRecDepth 16384

noncomputable section

namespace Cert.KernelIdeal.RowSum

open Idealize.ShloMosaic Idealize.ShloMosaic.TcCoe Idealize.ShloMosaic.ValueIdx Idealize.SL.Sem
open Cert.KernelIdeal Cert.KernelIdeal.Gen
open Idealize.ShloMosaic.Pipeline (Dat)

/-- The sums of the rows of a 2048 × 2048 matrix, as a 2048 × 1 column. -/
def colSums (W : S2048x2048.Idx → EReal) : S2048x1.Idx → EReal := fun i => ∑ k : Fin 2048, W (ix2 (i 0) k)

theorem colSums_apply (W : S2048x2048.Idx → EReal) (r : Fin 2048) (u : Fin 1) :
    colSums W (ix2 r u) = ∑ k : Fin 2048, W (ix2 r k) := rfl

/-- The two zero offsets, as the constant function. -/
theorem zeros2 : (![0, 0] : Fin 2 → Nat) = fun _ => 0 := funext fun a => by fin_cases a <;> rfl

/-- The printed index maps over the four points: the input block and the output block move together along the rows,
    neither moves along the columns, and the row block index stays below four. -/
theorem index_facts0 : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 3 :=
  (by decide +kernel : ∀ t : Fin grid0.N, _)

/-- Every one of the four row blocks is some point's. -/
theorem index_onto0 : ∀ q0 : Fin 4, ∃ t : Fin cfg0.N, win0_1.index t = ![q0.val, 0] :=
  (by decide +kernel : ∀ q0 : Fin 4, ∃ t : Fin grid0.N, win0_1.index t = ![q0.val, 0])

section
variable (V : (c : Dev nD) → (b : Ref sig .tc) → Buf (Elt Ideal) ((c : Thread nD τ).loc b))

/-- What point `t` writes back is block `t` of the column of row sums of `w` as the call finds it. -/
theorem flushed0_eq (c : Dev nD) (t : Fin cfg0.N) :
    (dat0 V c).flushed 1 t = ((cfg0.win 1).blk t).view.read (Elt Ideal) (colSums (V c main_arg1)) := by
  show (cfg0.win 1).cut (grid0.coords t) ((dat0 V c).after 1 t) = _
  rw [after0_1]
  unfold out0_1
  rw [View.canon_unit_zero zeros2]
  simp only [View.ld_unit_zero (S := S512x2048) zeros2]
  obtain ⟨e0, e1, e2, e3⟩ := index_facts0 t
  funext j
  obtain ⟨p, u, rfl⟩ : ∃ (p : Fin 512) (u : Fin 1), j = ix2 p u := ⟨j 0, j 1, eq_ix2 j⟩
  refine (k0_pay1_apply (iblk0 V c 0 t) p u).trans ?_
  have key : ∀ X : S2048x2048.Idx → EReal,
      ∑ k : Fin 2048, X (((cfg0.win 0).blk t).view.emb (ix2 p k))
        = ∑ k : Fin 2048, X (ix2 (n0 := 2048) (n1 := 2048) ((((cfg0.win 1).blk t).view.emb (ix2 p u)) 0) k) := fun X =>
    Finset.sum_congr rfl fun k _ => congrArg X (by
      funext a; apply Fin.ext
      match a with
      | ⟨0, _⟩ =>
        show win0_0.index t (0 : Fin 2) * 512 + 1 * p.val = win0_1.index t (0 : Fin 2) * 512 + 1 * p.val
        rw [e0]
      | ⟨1, _⟩ =>
        show win0_0.index t (1 : Fin 2) * 2048 + 1 * k.val = k.val
        rw [e1]; omega)
  exact key (V c main_arg1)

/-- An index of the result is in point `t`'s block iff each coordinate is in the block's range on its axis. -/
theorem mem_blk0 (t : Fin cfg0.N) (i : S2048x1.Idx) :
    i ∈ ((cfg0.win 1).blk t).view.set ↔ ∀ a : Fin 2, win0_1.index t a * S512x1.size a ≤ (i a).val
      ∧ (i a).val < win0_1.index t a * S512x1.size a + S512x1.size a := by
  show i ∈ ((View.whole main_v0).slice (win0_1.rect t)).set ↔ _
  rw [View.set_slice_whole, Rect.mem_set_unit]
  exact Iff.rfl

/-- The four blocks tile the result: row `r` is in the block of the point whose row block index is `r / 512`. -/
theorem cover0 (i : S2048x1.Idx) : ∃ t : Fin cfg0.N, (cfg0.win 1).flush t = true ∧ i ∈ ((cfg0.win 1).blk t).view.set := by
  have hi0 : (i 0).val < 2048 := (i 0).isLt
  have hi1 : (i 1).val < 1 := (i 1).isLt
  obtain ⟨t, ht⟩ := index_onto0 ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_blk0]
  intro a
  match a with
  | ⟨0, _⟩ =>
    show win0_1.index t (0 : Fin 2) * 512 ≤ (i 0).val ∧ (i 0).val < win0_1.index t (0 : Fin 2) * 512 + 512
    omega
  | ⟨1, _⟩ =>
    show win0_1.index t (1 : Fin 2) * 1 ≤ (i 1).val ∧ (i 1).val < win0_1.index t (1 : Fin 2) * 1 + 1
    omega

/-- After the first call its result array is the column of row sums of `w` as the call found it. -/
theorem final0 (c : Dev nD) : (dat0 V c).arrAt 1 cfg0.N = colSums (V c main_arg1) :=
  (dat0 V c).arrAt_eq_of_cover 1 (colSums (V c main_arg1)) (fun t _ => flushed0_eq V c t) cover0

end

end Cert.KernelIdeal.RowSum

end
-- ==== Proof.Region1.lean ====
/-
  The second pallas_call adds the two row sums and scales by the bias.

  Its grid has sixteen points; point `t` loads rows 512·t … 512·t + 511 of `x` (all 2048 columns), the whole 1 × 2048
  row of `w`'s row sums and the whole 1 × 2048 bias row, and writes back rows 512·t … 512·t + 511 of the 8192 × 2048
  result. So what each point writes back is its block of ONE whole-array function of the three arrays — entry
  `(r, q)` is (Σ_k x[r, k] + s[0, q]) · b[0, q] — and the sixteen blocks tile the result (row `r` is in the block of
  point `r / 512`): after the call the result array is that function.
-/
import proofs.«120098_j30133490549220_2_alg».proof.Proof.Gen.KernelIdeal.Frame
import proofs.«120098_j30133490549220_2_alg».proof.Proof.Payloads
import proofs.«120098_j30133490549220_2_alg».proof.Proof.Region0
import Idealize.ShloMosaic.Lib.Pipeline.Value

set_option maxRecDepth 16384

noncomputable section

namespace Cert.KernelIdeal.RowSum

open Idealize.ShloMosaic Idealize.ShloMosaic.TcCoe Idealize.ShloMosaic.ValueIdx Idealize.SL.Sem
open Cert.KernelIdeal Cert.KernelIdeal.Gen
open Idealize.ShloMosaic.Pipeline (Dat)

/-- Entry `(r, q)`: the sum of row `r` of `X`, plus the row `R` at `q`, times the row `B` at `q`. -/
def combine (X : S8192x2048.Idx → EReal) (R B : S1x2048.Idx → EReal) : S8192x2048.Idx → EReal :=
  fun i => ((∑ k : Fin 2048, X (ix2 (i 0) k)) + R (ix2 (0 : Fin 1) (i 1))) * B (ix2 (0 : Fin 1) (i 1))

theorem combine_apply (X : S8192x2048.Idx → EReal) (R B : S1x2048.Idx → EReal) (r : Fin 8192) (q : Fin 2048) :
    combine X R B (ix2 r q) = ((∑ k : Fin 2048, X (ix2 r k)) + R (ix2 (0 : Fin 1) q)) * B (ix2 (0 : Fin 1) q) := rfl

/-- The printed index maps over the sixteen points: the `x` block and the output block move together along the rows
    and not along the columns; the two rows are always the whole row; the row block index stays below sixteen. -/
theorem index_facts1 : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 15 :=
  (by decide +kernel : ∀ t : Fin grid1.N, _)

/-- Every one of the sixteen row blocks is some point's. -/
theorem index_onto1 : ∀ q0 : Fin 16, ∃ t : Fin cfg1.N, win1_3.index t = ![q0.val, 0] :=
  (by decide +kernel : ∀ q0 : Fin 16, ∃ t : Fin grid1.N, win1_3.index t = ![q0.val, 0])

section
variable (V : (c : Dev nD) → (b : Ref sig .tc) → Buf (Elt Ideal) ((c : Thread nD τ).loc b))

/-- What point `t` writes back is block `t` of the combined array of `x`, the row-sum row and the bias row as the
    call finds them. -/
theorem flushed1_eq (c : Dev nD) (t : Fin cfg1.N) :
    (dat1 V c).flushed 3 t
      = ((cfg1.win 3).blk t).view.read (Elt Ideal) (combine (V c main_arg0) (V c main_v3) (V c main_v1)) := by
  show (cfg1.win 3).cut (grid1.coords t) ((dat1 V c).after 3 t) = _
  rw [after1_3]
  unfold out1_3
  rw [View.canon_unit_zero zeros2]
  simp only [View.ld_unit_zero (S := S512x2048) zeros2, View.ld_unit_zero (S := S1x2048) zeros2]
  obtain ⟨e0, e1, e2, e3, e4, e5, e6, e7⟩ := index_facts1 t
  funext j
  obtain ⟨p, q, rfl⟩ : ∃ (p : Fin 512) (q : Fin 2048), j = ix2 p q := ⟨j 0, j 1, eq_ix2 j⟩
  refine (k1_pay1_apply (iblk1 V c 0 t) (iblk1 V c 2 t) (iblk1 V c 1 t) p q).trans ?_
  have key : ∀ (X : S8192x2048.Idx → EReal) (R B : S1x2048.Idx → EReal),
      ((∑ k : Fin 2048, X (((cfg1.win 0).blk t).view.emb (ix2 p k)))
          + R (((cfg1.win 2).blk t).view.emb (ix2 (0 : Fin 1) q))) * B (((cfg1.win 1).blk t).view.emb (ix2 (0 : Fin 1) q))
        = combine X R B (((cfg1.win 3).blk t).view.emb (ix2 p q)) := fun X R B => by
    refine congrArg₂ (· * ·) (congrArg₂ (· + ·) (Finset.sum_congr rfl fun k _ => congrArg X ?_) (congrArg R ?_)) (congrArg B ?_)
    · funext a; apply Fin.ext
      match a with
      | ⟨0, _⟩ =>
        show win1_0.index t (0 : Fin 2) * 512 + 1 * p.val = win1_3.index t (0 : Fin 2) * 512 + 1 * p.val
        rw [e0]
      | ⟨1, _⟩ =>
        show win1_0.index t (1 : Fin 2) * 2048 + 1 * k.val = k.val
        rw [e1]; omega
    · funext a; apply Fin.ext
      match a with
      | ⟨0, _⟩ =>
        show win1_2.index t (0 : Fin 2) * 1 + 1 * 0 = 0
        rw [e5]
      | ⟨1, _⟩ =>
        show win1_2.index t (1 : Fin 2) * 2048 + 1 * q.val = win1_3.index t (1 : Fin 2) * 2048 + 1 * q.val
        rw [e6, e2]
    · funext a; apply Fin.ext
      match a with
      | ⟨0, _⟩ =>
        show win1_1.index t (0 : Fin 2) * 1 + 1 * 0 = 0
        rw [e3]
      | ⟨1, _⟩ =>
        show win1_1.index t (1 : Fin 2) * 2048 + 1 * q.val = win1_3.index t (1 : Fin 2) * 2048 + 1 * q.val
        rw [e4, e2]
  exact key (V c main_arg0) (V c main_v3) (V c main_v1)

/-- An index of the result is in point `t`'s block iff each coordinate is in the block's range on its axis. -/
theorem mem_blk1 (t : Fin cfg1.N) (i : S8192x2048.Idx) :
    i ∈ ((cfg1.win 3).blk t).view.set ↔ ∀ a : Fin 2, win1_3.index t a * S512x2048.size a ≤ (i a).val
      ∧ (i a).val < win1_3.index t a * S512x2048.size a + S512x2048.size a := by
  show i ∈ ((View.whole main_v4).slice (win1_3.rect t)).set ↔ _
  rw [View.set_slice_whole, Rect.mem_set_unit]
  exact Iff.rfl

/-- The sixteen blocks tile the result: row `r` is in the block of the point whose row block index is `r / 512`. -/
theorem cover1 (i : S8192x2048.Idx) : ∃ t : Fin cfg1.N, (cfg1.win 3).flush t = true ∧ i ∈ ((cfg1.win 3).blk t).view.set := by
  have hi0 : (i 0).val < 8192 := (i 0).isLt
  have hi1 : (i 1).val < 2048 := (i 1).isLt
  obtain ⟨t, ht⟩ := index_onto1 ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [mem_blk1]
  intro a
  match a with
  | ⟨0, _⟩ =>
    show win1_3.index t (0 : Fin 2) * 512 ≤ (i 0).val ∧ (i 0).val < win1_3.index t (0 : Fin 2) * 512 + 512
    omega
  | ⟨1, _⟩ =>
    show win1_3.index t (1 : Fin 2) * 2048 ≤ (i 1).val ∧ (i 1).val < win1_3.index t (1 : Fin 2) * 2048 + 2048
    omega

/-- After the second call its result array is the combined array of `x`, the row-sum row and the bias row as the call
    found them. -/
theorem final1 (c : Dev nD) :
    (dat1 V c).arrAt 3 cfg1.N = combine (V c main_arg0) (V c main_v3) (V c main_v1) :=
  (dat1 V c).arrAt_eq_of_cover 3 (combine (V c main_arg0) (V c main_v3) (V c main_v1)) (fun t _ => flushed1_eq V c t) cover1

end

end Cert.KernelIdeal.RowSum

end
-- ==== Proof.LibUnitColumn.lean ====
/-
  A column read back as a vector.

  An `a × 1` column reshaped to a length-`a` vector keeps its entries in order: entry `i` of the vector is entry
  `(i, 0)` of the column (both sit at row-major position `i`).
-/
import Idealize.ShloMosaic.Lib.ValueIdx
import Idealize.ShloMosaic.Lib.Pipeline.Value

namespace Cert.LibUnitColumn

open Idealize.ShloMosaic Idealize.ShloMosaic.ValueIdx

variable {α : Type}

/-- An `a × 1` column reshaped to a length-`a` vector: entry `i` is the column's entry `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibUnitColumn
-- ==== Proof.Between.lean ====
/-
  Between the two pallas_calls: three reshapes, and what the second call then finds.

  The host reshapes the bias vector to a 1 × 2048 row, and the first call's 2048 × 1 column of row sums first to a
  vector, then to a 1 × 2048 row. A reshape keeps entries in row-major order, so entry `(0, q)` of the bias row is the
  bias at `q`, and entry `(0, q)` of the row of sums is entry `(q, 0)` of the column: Σ_k w[q, k]. The array `x` is
  touched by nothing before the second call. With those three readings the second call's result — entry `(r, q)` is
  (Σ_k x[r, k] + row of sums at `q`) · bias row at `q` — is the row-sum function of the launch arrays.
-/
import proofs.«120098_j30133490549220_2_alg».proof.Proof.Gen.KernelIdeal.Frame
import proofs.«120098_j30133490549220_2_alg».proof.Proof.Spec
import proofs.«120098_j30133490549220_2_alg».proof.Proof.Region0
import proofs.«120098_j30133490549220_2_alg».proof.Proof.Region1
import proofs.«120098_j30133490549220_2_alg».proof.Proof.LibUnitColumn
import Idealize.ShloMosaic.Lib.ValueLayout
import Idealize.ShloMosaic.Lib.StableHlo.Run

set_option maxRecDepth 16384

noncomputable section

namespace Cert.KernelIdeal.RowSum

open Idealize.ShloMosaic Idealize.ShloMosaic.TcCoe Idealize.ShloMosaic.ValueIdx Idealize.SL.Sem
open Idealize.ShloMosaic.StableHlo
open Cert.KernelIdeal Cert.KernelIdeal.Gen

/-- The algebra of the last step: a combined array whose row `R` holds the row sums of `W` and whose row `B` holds
    the vector `b` is the row-sum function of `X`, `W` and `b`. -/
theorem combine_eq_total (X : S8192x2048.Idx → EReal) (W : S2048x2048.Idx → EReal) (b : S2048.Idx → EReal)
    (R B : S1x2048.Idx → EReal)
    (hR : ∀ q : Fin 2048, R (ix2 (0 : Fin 1) q) = colSums W (ix2 q (0 : Fin 1)))
    (hB : ∀ q : Fin 2048, B (ix2 (0 : Fin 1) q) = b (ix1 q)) :
    combine X R B = Cert.RowSums.total X W b := by
  funext i
  obtain ⟨p, q, rfl⟩ : ∃ (p : Fin 8192) (q : Fin 2048), i = ix2 p q := ⟨i 0, i 1, eq_ix2 i⟩
  rw [combine_apply, Cert.RowSums.total_apply, hR q, hB q, colSums_apply]
  rfl

section
variable (m : (ℓ : Loc nD τ sig) → Buf (Elt Ideal) ℓ) (ρ : Dev nD → PrngReg)

/-- After the first call its result buffer holds the column of row sums of `w` as launched. -/
theorem W1_v0 (c : Dev nD) :
    W1 m ρ c (Proc.devRef .tc main_v0) = colSums (m ((c : Thread nD τ).loc main_arg1)) :=
  (W1_arr m ρ c 1).trans (final0 (V0 m ρ) c)

/-- The second call finds `x` as launched: neither the first call nor a reshape writes it. -/
theorem V2_arg0 (c : Dev nD) : V2 m ρ c main_arg0 = m ((c : Thread nD τ).loc main_arg0) := by
  show StableHlo.after hostOps1 (W1 m ρ c) (Proc.devRef .tc main_arg0) = _
  after_results
  exact W1_of_ne m ρ c main_arg0 (by decide)

/-- The bias row the second call finds: entry `(0, q)` is the launch bias at `q`. -/
theorem V2_v1_apply (c : Dev nD) (q : Fin 2048) :
    V2 m ρ c main_v1 (ix2 (0 : Fin 1) q) = m ((c : Thread nD τ).loc main_arg2) (ix1 q) := by
  have h : V2 m ρ c main_v1
      = shapeCast S1x2048 (m ((c : Thread nD τ).loc main_arg2)) Gen.shapeCasts_S2048_S1x2048 := by
    show StableHlo.after hostOps1 (W1 m ρ c) (Proc.devRef .tc main_v1) = _
    after_results
    rw [W1_of_ne m ρ c main_arg2 (by decide)]
    rfl
  exact (congrFun h _).trans (shapeCast_a_1a_apply _ _ 0 q)

/-- The row of sums the second call finds: entry `(0, q)` is the sum of row `q` of `w` as launched. -/
theorem V2_v3_apply (c : Dev nD) (q : Fin 2048) :
    V2 m ρ c main_v3 (ix2 (0 : Fin 1) q) = colSums (m ((c : Thread nD τ).loc main_arg1)) (ix2 q (0 : Fin 1)) := by
  have h : V2 m ρ c main_v3
      = shapeCast S1x2048 (shapeCast S2048 (colSums (m ((c : Thread nD τ).loc main_arg1))) Gen.shapeCasts_S2048x1_S2048)
          Gen.shapeCasts_S2048_S1x2048 := by
    show StableHlo.after hostOps1 (W1 m ρ c) (Proc.devRef .tc main_v3) = _
    after_results
    rw [W1_v0 m ρ c]
    rfl
  refine (congrFun h _).trans ?_
  refine (shapeCast_a_1a_apply _ _ 0 q).trans ?_
  exact Cert.LibUnitColumn.shapeCast_a1_a_apply _ _ q

/-- After the second call the result buffer holds the row-sum function of the three launch arrays. -/
theorem W3_v4 (c : Dev nD) :
    W3 m ρ c (Proc.devRef .tc main_v4)
      = Cert.RowSums.total (m ((c : Thread nD τ).loc main_arg0)) (m ((c : Thread nD τ).loc main_arg1))
          (m ((c : Thread nD τ).loc main_arg2)) := by
  refine (W3_arr m ρ c 3).trans ?_
  refine (final1 (V2 m ρ) c).trans ?_
  rw [V2_arg0 m ρ c]
  exact combine_eq_total _ _ _ _ _ (V2_v3_apply m ρ c) (V2_v1_apply m ρ c)

end

end Cert.KernelIdeal.RowSum

end
-- ==== Proof.KernelRun.lean ====
/-
  The kernel program's run, with its result named.

  The program is two pallas_calls with three reshapes between them. Its run is the launch over those three segments
  from the launch memory; the contents of every unscoped buffer at each segment boundary are a fold through the
  program, and the last boundary's contents are what every final state holds. Read at the result buffer this is the
  second call's output array after its write-backs; read at an argument it is the launch contents, since nothing
  writes an argument.
-/
import proofs.«120098_j30133490549220_2_alg».proof.Proof.Gen.KernelIdeal.Frame

set_option maxRecDepth 16384

noncomputable section

namespace Cert.KernelIdeal.RowSum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every final state holds each unscoped
    buffer at the last segment boundary's contents. -/
theorem run_ends : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The run, read at the result and at the arguments: the result buffer ends at the last boundary's contents, each
    argument as launched. -/
theorem run_result : θ_run defs (onTc (τ := τ) (main (F := F))) ⟨m, fun _ => 0, ρ⟩ (fun r => ∀ c : Dev nD,
      r.2.mem ((c.tc : Thread nD τ).loc main_v4) = W3 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨h c _ (mem_uc main_v4 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)
    (run_ends m ρ)

end Cert.KernelIdeal.RowSum

end
-- ==== Proof.lean ====
/-
  Row sums of two matrices, added across and scaled by a bias: the kernel program against its jnp reference.

  Both programs take `x` (8192 × 2048), `w` (2048 × 2048) and `b` (2048) and return the 8192 × 2048 array whose entry
  `(p, q)` is

      (Σ_k x[p, k]  +  Σ_k w[q, k]) · b[q].

  The kernel program does it in two pallas_calls. The first sums the rows of `w`, 512 rows per grid point, into a
  2048 × 1 column. The host reshapes that column to a 1 × 2048 row and the bias to a 1 × 2048 row. The second sums the
  rows of `x`, 512 rows per grid point, spreads each sum across its row, adds the row of `w`'s sums and multiplies by
  the bias row. The reference sums both matrices along their rows from zero, spreads the two vectors of sums against
  each other, adds and multiplies by the bias.

  On the extended reals a row's sum is one finite sum whatever order it is taken in, and a sum started from zero is
  that sum; a reshape and a spreading step only rename indices. So both results are the one function above (module
  `Spec`), with the same grouping of the addition and the product on both sides: no law beyond commutativity and
  associativity of the sum is used, and the finiteness of the inputs is not needed for the values.

  The pieces: `Payloads` reads what each kernel body stores at an entry; `Region0` and `Region1` show that what each
  grid point writes back is its block of one whole-array function and that the blocks tile the result; `Between` reads
  the three reshapes and joins the second call's result to the specification; `KernelRun` is the program's run with
  every buffer's final contents named; `RefValue` reads the reference's operations at an entry. The frames of the two
  kernel programs and the reference's run are the generated modules'.
-/
import proofs.«120098_j30133490549220_2_alg».proof.Defs
import proofs.«120098_j30133490549220_2_alg».proof.Proof.Gen.Kernel
import proofs.«120098_j30133490549220_2_alg».proof.Proof.Gen.Kernel.Skeleton
import proofs.«120098_j30133490549220_2_alg».proof.Proof.Gen.Kernel.Launch
import proofs.«120098_j30133490549220_2_alg».proof.Proof.Gen.Kernel.Points
import proofs.«120098_j30133490549220_2_alg».proof.Proof.Gen.Kernel.Frame
import proofs.«120098_j30133490549220_2_alg».proof.Proof.Gen.KernelIdeal
import proofs.«120098_j30133490549220_2_alg».proof.Proof.Gen.KernelIdeal.Skeleton
import proofs.«120098_j30133490549220_2_alg».proof.Proof.Gen.KernelIdeal.Launch
import proofs.«120098_j30133490549220_2_alg».proof.Proof.Gen.KernelIdeal.Points
import proofs.«120098_j30133490549220_2_alg».proof.Proof.Gen.KernelIdeal.Frame
import proofs.«120098_j30133490549220_2_alg».proof.Proof.Gen.ReferenceIdeal
import proofs.«120098_j30133490549220_2_alg».proof.Proof.Gen.Pre_finite_inputs
import proofs.«120098_j30133490549220_2_alg».proof.Proof.Gen.ReferenceIdeal.Run
import proofs.«120098_j30133490549220_2_alg».proof.Proof.Gen.ReferenceIdeal.Read
import proofs.«120098_j30133490549220_2_alg».proof.Proof.Spec
import proofs.«120098_j30133490549220_2_alg».proof.Proof.RefValue
import proofs.«120098_j30133490549220_2_alg».proof.Proof.Between
import proofs.«120098_j30133490549220_2_alg».proof.Proof.KernelRun
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `x`, `w` and `b`, both idealized programs end with the row-sum function of the three
    arrays in their result: the kernel program by its two calls' blocks and the reshapes between them, the reference by
    its operations read at an entry. -/
theorem algebraic : Cert.algebraic_KernelIdeal_ReferenceIdeal := by
  intro m ρ m' ρ' _ hagree
  refine ⟨fun c => Cert.RowSums.total (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.RowSum.W3_v4 m ρ c), (h c).2⟩)
      (Cert.KernelIdeal.RowSum.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v9_eq, Cert.ReferenceIdeal.RefValue.result_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
